-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x4096 : Shape := ⟨3, ![4, 64, 4096]⟩
abbrev S4x1x4096 : Shape := ⟨3, ![4, 1, 4096]⟩
abbrev S_ : Shape := ⟨0, ![]⟩

class Facts : Prop where
  bcast_S_S4x64x4096 : S_.BroadcastsInDim S4x64x4096 (![] : Fin 0 → Fin S4x64x4096.rank)
  reducesTo_S4x64x4096_S_d0_1_2 : S4x64x4096.ReducesTo [0, 1, 2] S_
  h_S_ : 0 < S_.numel
  bcast_S_S4x1x4096 : S_.BroadcastsInDim S4x1x4096 (![] : Fin 0 → Fin S4x1x4096.rank)
  reducesTo_S4x1x4096_S_d0_1_2 : S4x1x4096.ReducesTo [0, 1, 2] S_

variable [Facts]

def fn_part1 {F : FTy → Type} [FloatOps F] (main_v13 : IVec S_ 1) (main_v16 : IVec S4x1x4096 1) : IVec S_ 1 :=
  let main_c_5 : IVec S_ 1 := constantI S_ 1 1#1
  let main_v17 : IVec S_ 1 := (fun x v => Host.reduce IntOp.andi x v reducesTo_S4x1x4096_S_d0_1_2 h_S_) main_v16 main_c_5
  let main_v18 : IVec S_ 1 := andi main_v13 main_v17
  main_v18

def fn {F : FTy → Type} [FloatOps F] (main_arg0 : FVec F S4x64x4096 .f32) (main_arg1 : FVec F S4x64x4096 .f32) (main_arg2 : FVec F S4x64x4096 .f32) (main_arg3 : FVec F S4x1x4096 .f32) : IVec S_ 1 :=
  let main_v0 : FVec F S4x64x4096 .f32 := Host.absf main_arg0
  let main_cst : FVec F S_ .f32 := constant S_ .f32 0x7F800000#32
  let main_v1 : FVec F S4x64x4096 .f32 := broadcastInDim S4x64x4096 ![] bcast_S_S4x64x4096 main_cst
  let main_v2 : IVec S4x64x4096 1 := cmpf .olt main_v0 main_v1
  let main_c : IVec S_ 1 := constantI S_ 1 1#1
  let main_v3 : IVec S_ 1 := (fun x v => Host.reduce IntOp.andi x v reducesTo_S4x64x4096_S_d0_1_2 h_S_) main_v2 main_c
  let main_v4 : FVec F S4x64x4096 .f32 := Host.absf main_arg1
  let main_cst_0 : FVec F S_ .f32 := constant S_ .f32 0x7F800000#32
  let main_v5 : FVec F S4x64x4096 .f32 := broadcastInDim S4x64x4096 ![] bcast_S_S4x64x4096 main_cst_0
  let main_v6 : IVec S4x64x4096 1 := cmpf .olt main_v4 main_v5
  let main_c_1 : IVec S_ 1 := constantI S_ 1 1#1
  let main_v7 : IVec S_ 1 := (fun x v => Host.reduce IntOp.andi x v reducesTo_S4x64x4096_S_d0_1_2 h_S_) main_v6 main_c_1
  let main_v8 : IVec S_ 1 := andi main_v3 main_v7
  let main_v9 : FVec F S4x64x4096 .f32 := Host.absf main_arg2
  let main_cst_2 : FVec F S_ .f32 := constant S_ .f32 0x7F800000#32
  let main_v10 : FVec F S4x64x4096 .f32 := broadcastInDim S4x64x4096 ![] bcast_S_S4x64x4096 main_cst_2
  let main_v11 : IVec S4x64x4096 1 := cmpf .olt main_v9 main_v10
  let main_c_3 : IVec S_ 1 := constantI S_ 1 1#1
  let main_v12 : IVec S_ 1 := (fun x v => Host.reduce IntOp.andi x v reducesTo_S4x64x4096_S_d0_1_2 h_S_) main_v11 main_c_3
  let main_v13 : IVec S_ 1 := andi main_v8 main_v12
  let main_v14 : FVec F S4x1x4096 .f32 := Host.absf main_arg3
  let main_cst_4 : FVec F S_ .f32 := constant S_ .f32 0x7F800000#32
  let main_v15 : FVec F S4x1x4096 .f32 := broadcastInDim S4x1x4096 ![] bcast_S_S4x1x4096 main_cst_4
  let main_v16 : IVec S4x1x4096 1 := cmpf .olt main_v14 main_v15
  fn_part1 (F := F) main_v13 main_v16
-- ==== Kernel.lean ====
abbrev S4x64x4096 : Shape := ⟨3, ![4, 64, 4096]⟩
abbrev S4x1x4096 : Shape := ⟨3, ![4, 1, 4096]⟩
abbrev S_ : Shape := ⟨0, ![]⟩
abbrev S4x4096x4096 : Shape := ⟨3, ![4, 4096, 4096]⟩
abbrev S1x64x256 : Shape := ⟨3, ![1, 64, 256]⟩
abbrev S1x64x4096 : Shape := ⟨3, ![1, 64, 4096]⟩
abbrev S1x1x4096 : Shape := ⟨3, ![1, 1, 4096]⟩
abbrev S1x4096x256 : Shape := ⟨3, ![1, 4096, 256]⟩
abbrev S64x256 : Shape := ⟨2, ![64, 256]⟩
abbrev S64x4096 : Shape := ⟨2, ![64, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096x256 : Shape := ⟨2, ![4096, 256]⟩

abbrev nBuf : Space → Nat
  | .hbm => 10
  | .vmem => 14
  | .smem => 0
  | _ => 0

abbrev bufTy : (tb : Table) → Fin (tcTables nBuf tb) → BufTy
  | .hbm, ⟨0, _⟩ => ⟨S4x64x4096, .f32⟩
  | .hbm, ⟨1, _⟩ => ⟨S4x64x4096, .f32⟩
  | .hbm, ⟨2, _⟩ => ⟨S4x64x4096, .f32⟩
  | .hbm, ⟨3, _⟩ => ⟨S4x1x4096, .f32⟩
  | .hbm, ⟨4, _⟩ => ⟨S_, .f32⟩
  | .hbm, ⟨5, _⟩ => ⟨S4x1x4096, .f32⟩
  | .hbm, ⟨6, _⟩ => ⟨S4x1x4096, .f32⟩
  | .hbm, ⟨7, _⟩ => ⟨S4x1x4096, .f32⟩
  | .hbm, ⟨8, _⟩ => ⟨S4x64x4096, .f32⟩
  | .hbm, ⟨9, _⟩ => ⟨S4x4096x4096, .f32⟩
  | .local _ .vmem, ⟨0, _⟩ => ⟨S1x64x256, .f32⟩
  | .local _ .vmem, ⟨1, _⟩ => ⟨S1x64x256, .f32⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x64x256, .f32⟩
  | .local _ .vmem, ⟨11, _⟩ => ⟨S1x64x256, .f32⟩
  | .local _ .vmem, ⟨12, _⟩ => ⟨S1x4096x256, .f32⟩
  | .local _ .vmem, ⟨13, _⟩ => ⟨S1x4096x256, .f32⟩
  | _, _ => ⟨S4x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S4x1x4096 : S_.BroadcastsInDim S4x1x4096 (![] : Fin 0 → Fin S4x1x4096.rank)
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  bitsLt_bf16_f32 : FTy.bits .bf16 < FTy.bits .f32
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  transposes_S256x4096_p1_0_S4096x256 : S256x4096.Transposes [1, 0] S4096x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  shapeCasts_S64x256_S1x64x256 : S64x256.ShapeCasts S1x64x256
  dot_S64x256_S64x4096_S256x4096_0_0_1_1_n_n_wf : DotDims.WF S64x256 S64x4096 S256x4096 [0] [0] [1] [1] [] []
  dot_S64x4096_S4096x256_S64x256_1_0_0_1_n_n_wf : DotDims.WF S64x4096 S4096x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S4x64x4096.size a
  hwx0_0 : ∀ i : grid0.Coords, EltTy.bits .f32 = 32 ∨ (Rect.block (s := S4x64x4096) S1x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S4x64x4096.size a
  hwx0_1 : ∀ i : grid0.Coords, EltTy.bits .f32 = 32 ∨ (Rect.block (s := S4x64x4096) S1x64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x4096.size a ≤ S4x64x4096.size a
  hwx0_2 : ∀ i : grid0.Coords, EltTy.bits .f32 = 32 ∨ (Rect.block (s := S4x64x4096) S1x64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S4x1x4096.size a
  hwx0_4 : ∀ i : grid0.Coords, EltTy.bits .f32 = 32 ∨ (Rect.block (s := S4x1x4096) S1x1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x256.size a ≤ S4x64x4096.size a
  hwx0_5 : ∀ i : grid0.Coords, EltTy.bits .f32 = 32 ∨ (Rect.block (s := S4x64x4096) S1x64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096x256.size a ≤ S4x4096x4096.size a
  hwx0_6 : ∀ i : grid0.Coords, EltTy.bits .f32 = 32 ∨ (Rect.block (s := S4x4096x4096) S1x4096x256.size (cc0_transform_6 i) (hinb0_6 i)).WholeWords (EltTy.packing .f32)

variable [Facts₀]

def dot_S64x256_S64x4096_S256x4096_0_0_1_1_n_n : DotDims S64x256 S64x4096 S256x4096 where
  lhsContracting := [0]
  rhsContracting := [0]
  lhsNonContracting := [1]
  rhsNonContracting := [1]
  lhsBatch := []
  rhsBatch := []
  wf := dot_S64x256_S64x4096_S256x4096_0_0_1_1_n_n_wf
def dot_S64x4096_S4096x256_S64x256_1_0_0_1_n_n : DotDims S64x4096 S4096x256 S64x256 where
  lhsContracting := [1]
  rhsContracting := [0]
  lhsNonContracting := [0]
  rhsNonContracting := [1]
  lhsBatch := []
  rhsBatch := []
  wf := dot_S64x4096_S4096x256_S64x256_1_0_0_1_n_n_wf

abbrev win0_0 : Pipeline.Window sig grid0 :=
  Pipeline.Window.ofSpec (Memref.whole main_arg0) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x64x4096 : Shape := ⟨3, ![4, 64, 4096]⟩
abbrev S4x1x4096 : Shape := ⟨3, ![4, 1, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x64x4096, .f32⟩
  | .hbm, ⟨1, _⟩ => ⟨S4x64x4096, .f32⟩
  | .hbm, ⟨2, _⟩ => ⟨S4x64x4096, .f32⟩
  | .hbm, ⟨3, _⟩ => ⟨S4x1x4096, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x1x4096, .f32⟩
  | .hbm, ⟨10, _⟩ => ⟨S4x1x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x64x4096, .f32⟩
  | _, _ => ⟨S4x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4x1x4096 : S_.BroadcastsInDim S4x1x4096 (![] : Fin 0 → Fin S4x1x4096.rank)
  bcast_S4x1x4096_S4x4096x4096_0_1_2 : S4x1x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x4096_S4x4096x4096_0_2_1 : S4x4096x4096.Transposes [0, 2, 1] S4x4096x4096
  dot_S4x64x4096_S4x64x4096_S4x4096x4096_1_1_2_2_0_0_wf : DotDims.WF S4x64x4096 S4x64x4096 S4x4096x4096 [1] [1] [2] [2] [0] [0]
  dot_S4x64x4096_S4x4096x4096_S4x64x4096_2_1_1_2_0_0_wf : DotDims.WF S4x64x4096 S4x4096x4096 S4x64x4096 [2] [1] [1] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf
def dot_S4x64x4096_S4x4096x4096_S4x64x4096_2_1_1_2_0_0 : DotDims S4x64x4096 S4x4096x4096 S4x64x4096 where
  lhsContracting := [2]
  rhsContracting := [1]
  lhsNonContracting := [1]
  rhsNonContracting := [2]
  lhsBatch := [0]
  rhsBatch := [0]
  wf := dot_S4x64x4096_S4x4096x4096_S4x64x4096_2_1_1_2_0_0_wf

class Facts : Prop extends Facts₀ where

variable [Facts]
-- ==== Proof.AttnSpec.lean ====
/-
  Single-head attention with a key padding mask, as ONE function of the four argument arrays, over the extended reals.

  The arguments: queries, keys, values `q k v : [4, 64, 4096]` (batch, channel, position) and a mask `[4, 1, 4096]` over
  key positions. For one batch entry and one query position `lq`, with `qv c = q[b, c, lq]`:

    logit lk  = (∑ c, qv c · k[b, c, lk]) · (1/8) + log (mask[b, lk] + ε)
    p lk      = exp (logit lk - max over lk' of logit lk')
    attn lk   = p lk / (∑ lk', p lk') · mask[b, lk]
    out c     = ∑ lk, v[b, c, lk] · attn lk

  The two results are the attention weights with the key position first, `attnT[b, lk, lq]`, and `out[b, c, lq]`.
  Everything of one query position is written over that query's channel vector `qv` alone (`logitRow` … `outRow`), so a
  block of query positions is computed by the same terms as the whole array.

  The one algebraic law: scaling the query by a nonnegative finite factor before the channel sum is scaling the sum
  (`sum_scale_mul`); the extended reals distribute over a sum for such a factor, whatever the summands.
-/
import Idealize.ShloMosaic.PureOps.Ideal.Laws
import Idealize.ShloMosaic.Lib.ValueIdx

noncomputable section

namespace Cert.Attn

open Idealize.ShloMosaic Idealize.ShloMosaic.ValueIdx

/-- Queries, keys, values: batch × channel × position. -/
abbrev SQ : Shape := ⟨3, ![4, 64, 4096]⟩
/-- The mask over key positions. -/
abbrev SM : Shape := ⟨3, ![4, 1, 4096]⟩
/-- The attention weights, key position before query position. -/
abbrev SA : Shape := ⟨3, ![4, 4096, 4096]⟩

/-- The scale `1/8 = 1/√64`, as the float pattern both programs spell. -/
abbrev scale : EReal := Ideal.ofBits .f32 0x3E000000#32
/-- The `ε` added to the mask under the logarithm. -/
abbrev eps : EReal := Ideal.ofBits .f32 0x358637BD#32
/-- The value a row maximum starts from (the pattern of `-∞`). -/
abbrev negInf : EReal := Ideal.ofBits .f32 0xFF800000#32

/-- The pattern `0x3E000000` denotes the real `1/8`. -/
theorem scale_eq : scale = ((1 / 8 : ℝ) : EReal) := by
  simp [scale, Ideal.ofBits, Ideal.ieee, -EReal.coe_mul]; norm_num

theorem scale_nonneg : 0 ≤ scale := by rw [scale_eq]; exact EReal.coe_nonneg.mpr (by norm_num)
theorem scale_ne_top : scale ≠ ⊤ := by rw [scale_eq]; exact EReal.coe_ne_top _

/-- A nonnegative finite factor applied to one factor of every summand is applied to the sum. -/
theorem sum_scale_mul {ι : Type} [Fintype ι] (s : EReal) (hs : 0 ≤ s) (ht : s ≠ ⊤) (a b : ι → EReal) :
    ∑ c, a c * s * b c = (∑ c, a c * b c) * s := by
  classical
  have h : ∀ t : Finset ι, ∑ c ∈ t, a c * s * b c = (∑ c ∈ t, a c * b c) * s := fun t => by
    induction t using Finset.induction_on with
    | empty => simp
    | insert x t hx ih =>
      rw [Finset.sum_insert hx, Finset.sum_insert hx, ih, EReal.right_distrib_of_nonneg_of_ne_top hs ht, mul_right_comm]
  exact h Finset.univ

section Row
variable {nc nk : ℕ}

/-- One query's logits over the key positions. -/
def logitRow (qv : Fin nc → EReal) (K : Fin nc → Fin nk → EReal) (LM : Fin nk → EReal) (lk : Fin nk) : EReal :=
  (∑ c, qv c * K c lk) * scale + LM lk

/-- Their maximum. -/
def rowMax (qv : Fin nc → EReal) (K : Fin nc → Fin nk → EReal) (LM : Fin nk → EReal) : EReal :=
  (Finset.univ : Finset (Fin nk)).fold max negInf (logitRow qv K LM)

/-- The shifted exponentials. -/
def expRow (qv : Fin nc → EReal) (K : Fin nc → Fin nk → EReal) (LM : Fin nk → EReal) (lk : Fin nk) : EReal :=
  Ideal.exp (logitRow qv K LM lk - rowMax qv K LM)

/-- Their sum. -/
def rowSum (qv : Fin nc → EReal) (K : Fin nc → Fin nk → EReal) (LM : Fin nk → EReal) : EReal :=
  ∑ lk, expRow qv K LM lk

/-- The query's attention weights: the softmax, then the mask. -/
def attnRow (qv : Fin nc → EReal) (K : Fin nc → Fin nk → EReal) (M LM : Fin nk → EReal) (lk : Fin nk) : EReal :=
  Ideal.div (expRow qv K LM lk) (rowSum qv K LM) * M lk

/-- One channel of the query's output: the weights against that channel of the values. -/
def outRow (qv : Fin nc → EReal) (K : Fin nc → Fin nk → EReal) (M LM : Fin nk → EReal) (vv : Fin nk → EReal) : EReal :=
  ∑ lk, vv lk * attnRow qv K M LM lk

end Row

/-- The logarithm of the shifted mask, at batch entry `b`. -/
def logMask (mask : SM.Idx → EReal) (b : Fin 4) (lk : Fin 4096) : EReal := Ideal.log (mask (ix3 b 0 lk) + eps)

/-- The attention weights `[b, lk, lq]`. -/
def attnT (q k : SQ.Idx → EReal) (mask : SM.Idx → EReal) : SA.Idx → EReal := fun i =>
  attnRow (fun c => q (ix3 (i 0) c (i 2))) (fun c lk => k (ix3 (i 0) c lk)) (fun lk => mask (ix3 (i 0) 0 lk))
    (logMask mask (i 0)) (i 1)

/-- The output `[b, c, lq]`. -/
def out (q k v : SQ.Idx → EReal) (mask : SM.Idx → EReal) : SQ.Idx → EReal := fun i =>
  outRow (fun c => q (ix3 (i 0) c (i 2))) (fun c lk => k (ix3 (i 0) c lk)) (fun lk => mask (ix3 (i 0) 0 lk))
    (logMask mask (i 0)) (fun lk => v (ix3 (i 0) (i 1) lk))

end Cert.Attn

end
-- ==== Proof.RefAttn.lean ====
/-
  The reference program's two results, read one operation at a time at the extended reals, are the attention functions
  `Cert.Attn.out` and `Cert.Attn.attnT` of its four arguments.

  Reading order: the logits `energy · (1/8) + log (mask + ε)` at `(b, lq, lk)` (`logits_apply`); each row's maximum — the
  host's reduction over the key axis is the fold of `max` from its initial value, and the extra `max` with that same
  initial value changes nothing, a fold being at least where it starts — (`rowmax_apply`); the shifted exponentials and
  their row sums, the host's sum from `0` being the plain sum (`exp_apply`, `rowsum_apply`); the masked quotient
  (`weights_apply`); its transpose, the first result; and the second contraction over key positions, the second result.
-/
import proofs.«107089_j17265768529960_2_alg».proof.Proof.Gen.ReferenceIdeal.Read
import proofs.«107089_j17265768529960_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S4x64x4096, .f32⟩ : BufTy).Contents (Elt Ideal)) (x3 : (⟨S4x1x4096, .f32⟩ : BufTy).Contents (Elt Ideal))

/-! ## The operations' composed index maps, at coordinates -/

theorem lidx0 (b : Fin 4) (lq lk : Fin 4096) (c : Fin 64) : lidx_main_v0 (ix3 b lq lk) c = ix3 b c lq :=
  funext fun a => Fin.ext (by match a with | ⟨0, _⟩ => rfl | ⟨1, _⟩ => rfl | ⟨2, _⟩ => rfl)
theorem ridx0 (b : Fin 4) (lq lk : Fin 4096) (c : Fin 64) : ridx_main_v0 (ix3 b lq lk) c = ix3 b c lk :=
  funext fun a => Fin.ext (by match a with | ⟨0, _⟩ => rfl | ⟨1, _⟩ => rfl | ⟨2, _⟩ => rfl)
theorem idx6 (b : Fin 4) (lq lk : Fin 4096) : idx_main_v6 (ix3 b lq lk) = ix3 b (0 : Fin 1) lk :=
  funext fun a => Fin.ext (by match a with | ⟨0, _⟩ => rfl | ⟨1, _⟩ => rfl | ⟨2, _⟩ => rfl)
theorem idx19 (b : Fin 4) (lq lk : Fin 4096) : idx_main_v19 (ix3 b lq lk) = ix3 b (0 : Fin 1) lk :=
  funext fun a => Fin.ext (by match a with | ⟨0, _⟩ => rfl | ⟨1, _⟩ => rfl | ⟨2, _⟩ => rfl)
theorem idx12 (b : Fin 4) (lq lk : Fin 4096) : idx_main_v11 (idx_main_v12 (ix3 b lq lk)) = ix2 b lq :=
  funext fun a => Fin.ext (by match a with | ⟨0, _⟩ => rfl | ⟨1, _⟩ => rfl)
theorem idx17 (b : Fin 4) (lq lk : Fin 4096) : idx_main_v16 (idx_main_v17 (ix3 b lq lk)) = ix2 b lq :=
  funext fun a => Fin.ext (by match a with | ⟨0, _⟩ => rfl | ⟨1, _⟩ => rfl)
theorem idx15 (b : Fin 4) (lq lk : Fin 4096) : idx_main_v15 (ix2 b lq) lk = ix3 b lq lk :=
  funext fun a => Fin.ext (by match a with | ⟨0, _⟩ => rfl | ⟨1, _⟩ => rfl | ⟨2, _⟩ => rfl)
theorem idx21 (b : Fin 4) (lk lq : Fin 4096) : idx_main_v21 (ix3 b lk lq) = ix3 b lq lk :=
  funext fun a => Fin.ext (by match a with | ⟨0, _⟩ => rfl | ⟨1, _⟩ => rfl | ⟨2, _⟩ => rfl)
theorem lidx22 (b : Fin 4) (c : Fin 64) (lq lk : Fin 4096) : lidx_main_v22 (ix3 b c lq) lk = ix3 b c lk :=
  funext fun a => Fin.ext (by match a with | ⟨0, _⟩ => rfl | ⟨1, _⟩ => rfl | ⟨2, _⟩ => rfl)
theorem ridx22 (b : Fin 4) (c : Fin 64) (lq lk : Fin 4096) : ridx_main_v22 (ix3 b c lq) lk = ix3 b lk lq :=
  funext fun a => Fin.ext (by match a with | ⟨0, _⟩ => rfl | ⟨1, _⟩ => rfl | ⟨2, _⟩ => rfl)

/-- The reduced index `(b, lq)` with key position `lk` put back on the reduced axis. -/
theorem lift2 (h : S4x4096x4096.Reduces [2] S4x4096) (b : Fin 4) (lq : Fin 4096) (lk : Fin (S4x4096x4096.size 2)) :
    h.lift (ix2 b lq) lk = ix3 b lq (⟨lk.val, lk.isLt⟩ : Fin 4096) := by
  funext c; apply Fin.ext
  fin_cases c <;> rfl

/-! ## The stages at coordinates -/

/-- The query's channel vector, the batch entry's keys, mask and logarithm of the mask: what one row of the attention
    is computed from. -/
abbrev qv (b : Fin 4) (lq : Fin 4096) : Fin 64 → EReal := fun c => x0 (ix3 b c lq)
abbrev kb (b : Fin 4) : Fin 64 → Fin 4096 → EReal := fun c lk => x1 (ix3 b c lk)
abbrev mb (b : Fin 4) : Fin 4096 → EReal := fun lk => x3 (ix3 b (0 : Fin 1) lk)

theorem logits_apply (b : Fin 4) (lq lk : Fin 4096) :
    val_main_v7 (F := Ideal) x0 x1 x3 (ix3 b lq lk) = logitRow (qv x0 b lq) (kb x1 b) (logMask x3 b) lk := by
  rw [val_main_v7_apply, val_main_v2_apply, val_main_v0_apply, val_main_v1_apply, val_main_cst_apply,
    val_main_v6_apply, val_main_v5_apply, val_main_v4_apply, val_main_v3_apply, val_main_cst_0_apply]
  simp only [lidx0, ridx0, idx6]
  rfl

theorem rowmax_apply (b : Fin 4) (lq : Fin 4096) :
    val_main_v10 (F := Ideal) x0 x1 x3 (ix2 b lq) = rowMax (qv x0 b lq) (kb x1 b) (logMask x3 b) := by
  have h : S4x4096x4096.Reduces [2] S4x4096 := by decide
  rw [val_main_v10_apply, val_main_v9_apply, val_main_cst_2_apply]
  unfold val_main_v8
  rw [Host.reduce_eq_fold_single FloatOps.maximumf _ _ reducesTo_S4x4096x4096_S4x4096_d2 h h_S_]
  have e : (val_main_v7 (F := Ideal) x0 x1 x3 ∘ h.lift (ix2 b lq)) = logitRow (qv x0 b lq) (kb x1 b) (logMask x3 b) :=
    funext fun lk => by
      show val_main_v7 (F := Ideal) x0 x1 x3 (h.lift (ix2 b lq) lk) = _
      rw [lift2 h b lq lk, logits_apply]
      rfl
  rw [e]
  show max negInf ((Finset.univ : Finset (Fin 4096)).fold max negInf _) = _
  exact max_eq_right ((Finset.le_fold_max _).mpr (Or.inl le_rfl))

theorem exp_apply (b : Fin 4) (lq lk : Fin 4096) :
    val_main_v14 (F := Ideal) x0 x1 x3 (ix3 b lq lk) = expRow (qv x0 b lq) (kb x1 b) (logMask x3 b) lk := by
  rw [val_main_v14_apply, val_main_v13_apply, val_main_v12_apply, val_main_v11_apply, idx12, rowmax_apply, logits_apply]
  rfl

theorem rowsum_apply (b : Fin 4) (lq : Fin 4096) :
    val_main_v15 (F := Ideal) x0 x1 x3 (ix2 b lq) = rowSum (qv x0 b lq) (kb x1 b) (logMask x3 b) := by
  rw [val_main_v15_apply, val_main_cst_3_apply]
  show Ideal.ofBits .f32 0x00000000#32 + _ = _
  rw [Ideal.ofBits_zero_f32, zero_add]
  exact Finset.sum_congr rfl fun lk _ => by rw [idx15, exp_apply]

theorem weights_apply (b : Fin 4) (lq lk : Fin 4096) :
    val_main_v20 (F := Ideal) x0 x1 x3 (ix3 b lq lk) = attnRow (qv x0 b lq) (kb x1 b) (mb x3 b) (logMask x3 b) lk := by
  rw [val_main_v20_apply, val_main_v18_apply, val_main_v17_apply, val_main_v16_apply, idx17, rowsum_apply, exp_apply,
    val_main_v19_apply, idx19]
  rfl

/-! ## The two results -/

/-- The reference's first result array (the transposed weights) is `attnT` of the arguments. -/
theorem attnT_eq : val_main_v21 (F := Ideal) x0 x1 x3 = attnT x0 x1 x3 := by
  funext i
  obtain ⟨b, lk, lq, rfl⟩ : ∃ (b : Fin 4) (lk lq : Fin 4096), i = ix3 b lk lq := ⟨i 0, i 1, i 2, eq_ix3 i⟩
  rw [val_main_v21_apply, idx21, weights_apply]
  rfl

/-- The reference's second result array is `out` of the arguments. -/
theorem out_eq : val_main_v22 (F := Ideal) x0 x1 x2 x3 = out x0 x1 x2 x3 := by
  funext i
  obtain ⟨b, c, lq, rfl⟩ : ∃ (b : Fin 4) (c : Fin 64) (lq : Fin 4096), i = ix3 b c lq := ⟨i 0, i 1, i 2, eq_ix3 i⟩
  rw [val_main_v22_apply]
  show _ = outRow _ _ _ _ _
  unfold outRow
  refine Finset.sum_congr rfl fun lk _ => ?_
  rw [lidx22, ridx22, val_main_v21_apply, idx21, weights_apply]

end Cert.ReferenceIdeal.RefValue

end
-- ==== Proof.LibKeepdims.lean ====
/-
  General lemmas, over the library only: a rank-2 float array reduced along one axis with the reduced axis kept
  (`jnp.max(x, axis, keepdims=True)`, `jnp.sum(x, axis, keepdims=True)`) and broadcast back over the array, read at an
  index given by coordinates.

  * the keepdims casts and broadcasts the library's ValueLayout does not have: a vector `[a]` cast to a column `[a, 1]`
    (`shapeCast_a_a1_apply`) and a column `[a, 1]` broadcast over `[a, b]` (`broadcastTo_a1_ab_apply`);
  * the index a one-axis reduction of a matrix inserts (`lift_row`, `lift_col`);
  * at the ideal float values, a `vector.multi_reduction` of a matrix along its rows or columns read at a coordinate:
    a maximum as the fold of `max` from the accumulator's value (`maxRow_apply`, `maxCol_apply`), a sum as the
    `Fin`-indexed sum (`sumRow_apply`, `sumCol_apply`); the accumulator's two proof arguments are hypotheses, so
    the lemmas apply to a printed reduction whatever proof terms it carries;
  * the four composites a softmax over either axis meets: reduce, keep the axis, broadcast back — read at `(i, j)`
    (`maxRow_keep_apply`, `sumRow_keep_apply`, `maxCol_keep_apply`, `sumCol_keep_apply`).
-/
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.Keepdims

open Idealize.ShloMosaic Idealize.ShloMosaic.ValueIdx

variable {α : Type}

/-! ## The keepdims column forms -/

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector `[b]` cast to a row `[1, b]` and broadcast over `[a, b]` is in the library
    (`shapeCast_a_1a_apply`, `broadcastTo_1b_ab_apply`); a column `[a, 1]` broadcast over `[a, b]` reads, at `(i, j)`,
    the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The index a one-axis reduction of a matrix inserts -/

/-- Reducing a matrix along its rows (axis 1): the reduced index `i` with column `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Reducing a matrix along its columns (axis 0): the reduced index `j` with row `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-! ## A matrix reduced along one axis, at the ideal values, read at a coordinate -/

section AtIdeal
variable {φ : FTy} {a b : ℕ}

/-- The maximum of each row: the fold of `max` from the accumulator's value over the row's entries. -/
theorem maxRow_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ x acc h hφ hacc (ix1 i)
      = (Finset.univ : Finset (Fin b)).fold max (Ideal.ofBits φ acc) (fun j => x (ix2 i j)) := by
  refine (Ideal.multiReduction_maximumf_single x acc h hφ hacc (ix1 i)).trans ?_
  show (Finset.univ : Finset (Fin b)).fold max (Ideal.ofBits φ acc) (x ∘ h.lift (ix1 i)) = _
  exact congrArg (fun f => Finset.fold max (Ideal.ofBits φ acc) f (Finset.univ : Finset (Fin b)))
    (funext fun k => congrArg x (lift_row h i k))

/-- The sum of each row. -/
theorem sumRow_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ x acc h hφ hacc (ix1 i) = ∑ j : Fin b, x (ix2 i j) := by
  refine (Ideal.multiReduction_add_single x acc h hφ hacc (ix1 i)).trans ?_
  show ∑ k : Fin b, x (h.lift (ix1 i) k) = _
  exact Finset.sum_congr rfl fun k _ => congrArg x (lift_row h i k)

/-- The maximum of each column. -/
theorem maxCol_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ x acc h hφ hacc (ix1 j)
      = (Finset.univ : Finset (Fin a)).fold max (Ideal.ofBits φ acc) (fun i => x (ix2 i j)) := by
  refine (Ideal.multiReduction_maximumf_single x acc h hφ hacc (ix1 j)).trans ?_
  show (Finset.univ : Finset (Fin a)).fold max (Ideal.ofBits φ acc) (x ∘ h.lift (ix1 j)) = _
  exact congrArg (fun f => Finset.fold max (Ideal.ofBits φ acc) f (Finset.univ : Finset (Fin a)))
    (funext fun k => congrArg x (lift_col h j k))

/-- The sum of each column. -/
theorem sumCol_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ x acc h hφ hacc (ix1 j) = ∑ i : Fin a, x (ix2 i j) := by
  refine (Ideal.multiReduction_add_single x acc h hφ hacc (ix1 j)).trans ?_
  show ∑ k : Fin a, x (h.lift (ix1 j) k) = _
  exact Finset.sum_congr rfl fun k _ => congrArg x (lift_col h j k)

/-! ## Reduce, keep the axis, broadcast back -/

/-- Each row's maximum, kept as a column and broadcast back over the matrix, at `(i, j)`. -/
theorem maxRow_keep_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ (multiReduction .maximumf [1] ⟨1, ![a]⟩ x acc h hφ hacc) hc) hb (ix2 i j)
      = (Finset.univ : Finset (Fin b)).fold max (Ideal.ofBits φ acc) (fun j' => x (ix2 i j')) :=
  (broadcastTo_a1_ab_apply _ hb i j).trans ((shapeCast_a_a1_apply _ hc i 0).trans (maxRow_apply x acc h hφ hacc i))

/-- Each row's sum, kept as a column and broadcast back, at `(i, j)`. -/
theorem sumRow_keep_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ (multiReduction .add [1] ⟨1, ![a]⟩ x acc h hφ hacc) hc) hb (ix2 i j)
      = ∑ j' : Fin b, x (ix2 i j') :=
  (broadcastTo_a1_ab_apply _ hb i j).trans ((shapeCast_a_a1_apply _ hc i 0).trans (sumRow_apply x acc h hφ hacc i))

/-- Each column's maximum, kept as a row and broadcast back, at `(i, j)`. -/
theorem maxCol_keep_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (hc : (⟨1, ![b]⟩ : Shape).ShapeCasts ⟨2, ![1, b]⟩)
    (hb : (⟨2, ![1, b]⟩ : Shape).Broadcasts ⟨2, ![a, b]⟩) (i : Fin a) (j : Fin b) :
    broadcastTo ⟨2, ![a, b]⟩ (shapeCast ⟨2, ![1, b]⟩ (multiReduction .maximumf [0] ⟨1, ![b]⟩ x acc h hφ hacc) hc) hb (ix2 i j)
      = (Finset.univ : Finset (Fin a)).fold max (Ideal.ofBits φ acc) (fun i' => x (ix2 i' j)) :=
  (broadcastTo_1b_ab_apply _ hb i j).trans ((shapeCast_a_1a_apply _ hc 0 j).trans (maxCol_apply x acc h hφ hacc j))

/-- Each column's sum, kept as a row and broadcast back, at `(i, j)`. -/
theorem sumCol_keep_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (hc : (⟨1, ![b]⟩ : Shape).ShapeCasts ⟨2, ![1, b]⟩)
    (hb : (⟨2, ![1, b]⟩ : Shape).Broadcasts ⟨2, ![a, b]⟩) (i : Fin a) (j : Fin b) :
    broadcastTo ⟨2, ![a, b]⟩ (shapeCast ⟨2, ![1, b]⟩ (multiReduction .add [0] ⟨1, ![b]⟩ x acc h hφ hacc) hc) hb (ix2 i j)
      = ∑ i' : Fin a, x (ix2 i' j) :=
  (broadcastTo_1b_ab_apply _ hb i j).trans ((shapeCast_a_1a_apply _ hc 0 j).trans (sumCol_apply x acc h hφ hacc j))

end AtIdeal

end Idealize.ShloMosaic.Keepdims

end
-- ==== Proof.BodyAttn.lean ====
/-
  The kernel body's two stored values, read at coordinates at the extended reals, as the attention of the blocks it loads.

  The body loads a block of 256 query positions `P0 : [1, 64, 256]`, the batch entry's keys and values
  `P1 P4 : [1, 64, 4096]`, its mask `P2 : [1, 1, 4096]` and the logarithm of the shifted mask `P3 : [1, 1, 4096]`
  (computed before the call). It scales the queries by 1/8, contracts them with the keys over the channels, adds the
  logarithm row, takes each row's softmax (maximum, shifted exponential, sum, quotient), multiplies by the mask row,
  transposes — this is the first stored value — and contracts the values with it over the key positions — the second.

  Read at a query position `lq` of the block, all of this is the specification's row functions of that query's channel
  vector `c ↦ P0[0, c, lq]`: the one step that is not a reading is that scaling the query's entries by 1/8 before the
  channel sum is scaling the sum (`Cert.Attn.sum_scale_mul`).
-/
import proofs.«107089_j17265768529960_2_alg».proof.Proof.Gen.KernelIdeal.Skeleton
import proofs.«107089_j17265768529960_2_alg».proof.Proof.AttnSpec
import proofs.«107089_j17265768529960_2_alg».proof.Proof.LibKeepdims
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Idealize.ShloMosaic.Keepdims Cert.Attn

/-! ## The two contractions at coordinates -/

local notation "D1" => dot_S64x256_S64x4096_S256x4096_0_0_1_1_n_n
local notation "D2" => dot_S64x4096_S4096x256_S64x256_1_0_0_1_n_n

theorem d1_lhs0 (i : S256x4096.Idx) (q : (D1).contr.Idx) : ((D1).lhsIdx i q 0).val = (q ⟨0, by decide⟩).val :=
  (D1).lhsIdx_val_of_single rfl i q
theorem d1_lhs1 (i : S256x4096.Idx) (q : (D1).contr.Idx) : ((D1).lhsIdx i q 1).val = (i 0).val := by
  unfold DotDims.lhsIdx
  rw [dif_neg (show ¬(1 : Fin S64x256.rank) ∈ (D1).lhsBatch by decide), dif_pos (show (1 : Fin S64x256.rank) ∈ (D1).lhsNonContracting by decide)]
  rfl
theorem d1_rhs0 (i : S256x4096.Idx) (q : (D1).contr.Idx) : ((D1).rhsIdx i q 0).val = (q ⟨0, by decide⟩).val :=
  (D1).rhsIdx_val_of_single rfl i q
theorem d1_rhs1 (i : S256x4096.Idx) (q : (D1).contr.Idx) : ((D1).rhsIdx i q 1).val = (i 1).val := by
  unfold DotDims.rhsIdx
  rw [dif_neg (show ¬(1 : Fin S64x4096.rank) ∈ (D1).rhsBatch by decide), dif_pos (show (1 : Fin S64x4096.rank) ∈ (D1).rhsNonContracting by decide)]
  rfl

theorem d2_lhs0 (i : S64x256.Idx) (q : (D2).contr.Idx) : ((D2).lhsIdx i q 0).val = (i 0).val := by
  unfold DotDims.lhsIdx
  rw [dif_neg (show ¬(0 : Fin S64x4096.rank) ∈ (D2).lhsBatch by decide), dif_pos (show (0 : Fin S64x4096.rank) ∈ (D2).lhsNonContracting by decide)]
  rfl
theorem d2_lhs1 (i : S64x256.Idx) (q : (D2).contr.Idx) : ((D2).lhsIdx i q 1).val = (q ⟨0, by decide⟩).val :=
  (D2).lhsIdx_val_of_single rfl i q
theorem d2_rhs0 (i : S64x256.Idx) (q : (D2).contr.Idx) : ((D2).rhsIdx i q 0).val = (q ⟨0, by decide⟩).val :=
  (D2).rhsIdx_val_of_single rfl i q
theorem d2_rhs1 (i : S64x256.Idx) (q : (D2).contr.Idx) : ((D2).rhsIdx i q 1).val = (i 1).val := by
  unfold DotDims.rhsIdx
  rw [dif_neg (show ¬(1 : Fin S4096x256.rank) ∈ (D2).rhsBatch by decide), dif_pos (show (1 : Fin S4096x256.rank) ∈ (D2).rhsNonContracting by decide)]
  rfl

/-- Queries against keys, both contracted on their channel axis: at `(lq, lk)` the sum over the channels. -/
theorem energy_apply (A : FVec Ideal S64x256 .bf16) (B : FVec Ideal S64x4096 .bf16) (lq : Fin 256) (lk : Fin 4096) :
    matmul D1 none A B (constant S256x4096 .f32 0x00000000#32) (ix2 lq lk)
      = ∑ c : Fin 64, A (ix2 c lq) * B (ix2 c lk) := by
  simp only [matmul]
  rw [Ideal.matmul_constant_zero_apply, ← Equiv.sum_comp (contrEquiv1 D1 64 rfl rfl).symm]
  refine Finset.sum_congr rfl fun c _ => ?_
  have hc := contrEquiv1_symm_val D1 64 rfl rfl c
  have el : (D1).lhsIdx (ix2 lq lk) ((contrEquiv1 D1 64 rfl rfl).symm c) = ix2 c lq :=
    funext fun a => Fin.ext (by
      match a with
      | ⟨0, _⟩ => exact (d1_lhs0 _ _).trans hc
      | ⟨1, _⟩ => exact d1_lhs1 _ _)
  have er : (D1).rhsIdx (ix2 lq lk) ((contrEquiv1 D1 64 rfl rfl).symm c) = ix2 c lk :=
    funext fun a => Fin.ext (by
      match a with
      | ⟨0, _⟩ => exact (d1_rhs0 _ _).trans hc
      | ⟨1, _⟩ => exact d1_rhs1 _ _)
  rw [el, er]

/-- Values against the transposed weights: at `(c, lq)` the sum over the key positions. -/
theorem weighted_apply (A : FVec Ideal S64x4096 .bf16) (B : FVec Ideal S4096x256 .bf16) (c : Fin 64) (lq : Fin 256) :
    matmul D2 none A B (constant S64x256 .f32 0x00000000#32) (ix2 c lq)
      = ∑ lk : Fin 4096, A (ix2 c lk) * B (ix2 lk lq) := by
  simp only [matmul]
  rw [Ideal.matmul_constant_zero_apply, ← Equiv.sum_comp (contrEquiv1 D2 4096 rfl rfl).symm]
  refine Finset.sum_congr rfl fun lk _ => ?_
  have hk := contrEquiv1_symm_val D2 4096 rfl rfl lk
  have el : (D2).lhsIdx (ix2 c lq) ((contrEquiv1 D2 4096 rfl rfl).symm lk) = ix2 c lk :=
    funext fun a => Fin.ext (by
      match a with
      | ⟨0, _⟩ => exact d2_lhs0 _ _
      | ⟨1, _⟩ => exact (d2_lhs1 _ _).trans hk)
  have er : (D2).rhsIdx (ix2 c lq) ((contrEquiv1 D2 4096 rfl rfl).symm lk) = ix2 lk lq :=
    funext fun a => Fin.ext (by
      match a with
      | ⟨0, _⟩ => exact (d2_rhs0 _ _).trans hk
      | ⟨1, _⟩ => exact d2_rhs1 _ _)
  rw [el, er]

/-! ## The body, stage by stage, over the loaded blocks -/

section Blocks
variable (P0 : Vec Ideal S1x64x256 .f32) (P1 P4 : Vec Ideal S1x64x4096 .f32) (P2 P3 : Vec Ideal S1x1x4096 .f32)

/-- One query's channel vector, the keys, the mask row, the logarithm row and one channel of the values, off the blocks. -/
abbrev qvB (lq : Fin 256) : Fin 64 → EReal := fun c => P0 (ix3 (0 : Fin 1) c lq)
abbrev kB : Fin 64 → Fin 4096 → EReal := fun c lk => P1 (ix3 (0 : Fin 1) c lk)
abbrev mB : Fin 4096 → EReal := fun lk => P2 (ix3 (0 : Fin 1) (0 : Fin 1) lk)
abbrev lmB : Fin 4096 → EReal := fun lk => P3 (ix3 (0 : Fin 1) (0 : Fin 1) lk)
abbrev vB (c : Fin 64) : Fin 4096 → EReal := fun lk => P4 (ix3 (0 : Fin 1) c lk)

/-- The logits of the block's 256 queries: scaled queries against the keys, plus the logarithm row. -/
def bLogits : FVec Ideal S256x4096 .f32 :=
  addf (matmul D1 none
      (truncf .bf16 (mulf (shapeCast S64x256 P0 shapeCasts_S1x64x256_S64x256) (broadcast S64x256 (Scalar.ofBits .f32 0x3E000000#32))) bitsLt_bf16_f32)
      (truncf .bf16 (shapeCast S64x4096 P1 shapeCasts_S1x64x4096_S64x4096) bitsLt_bf16_f32) (constant S256x4096 .f32 0x00000000#32))
    (broadcastTo S256x4096 (shapeCast S1x4096 P3 shapeCasts_S1x1x4096_S1x4096) broadcasts_S1x4096_S256x4096)

theorem bLogits_apply (lq : Fin 256) (lk : Fin 4096) :
    bLogits P0 P1 P3 (ix2 lq lk) = logitRow (qvB P0 lq) (kB P1) (lmB P3) lk := by
  unfold bLogits
  rw [addf_apply, energy_apply, broadcastTo_1b_ab_apply, shapeCast_1ab_ab_apply]
  have e : ∀ c : Fin 64,
      (truncf .bf16 (mulf (shapeCast S64x256 P0 shapeCasts_S1x64x256_S64x256) (broadcast S64x256 (Scalar.ofBits .f32 0x3E000000#32))) bitsLt_bf16_f32 : FVec Ideal S64x256 .bf16) (ix2 c lq)
        * (truncf .bf16 (shapeCast S64x4096 P1 shapeCasts_S1x64x4096_S64x4096) bitsLt_bf16_f32 : FVec Ideal S64x4096 .bf16) (ix2 c lk)
      = qvB P0 lq c * scale * kB P1 c lk := fun c => by
    show (shapeCast S64x256 P0 shapeCasts_S1x64x256_S64x256 (ix2 c lq) * _) * shapeCast S64x4096 P1 shapeCasts_S1x64x4096_S64x4096 (ix2 c lk) = _
    rw [shapeCast_1ab_ab_apply, shapeCast_1ab_ab_apply]
    rfl
  rw [Finset.sum_congr rfl fun c _ => e c, sum_scale_mul scale scale_nonneg scale_ne_top]
  rfl

/-- The shifted exponentials: each row's maximum kept as a column, broadcast back and subtracted. -/
def bExp : FVec Ideal S256x4096 .f32 :=
  exp (subf (bLogits P0 P1 P3)
    (broadcastTo S256x4096 (shapeCast S256x1 (multiReduction .maximumf [1] S256 (bLogits P0 P1 P3) 0xFF800000#32 reduces_S256x4096_S256 (.inl rfl) rfl) shapeCasts_S256_S256x1) broadcasts_S256x1_S256x4096))

theorem bExp_apply (lq : Fin 256) (lk : Fin 4096) :
    bExp P0 P1 P3 (ix2 lq lk) = expRow (qvB P0 lq) (kB P1) (lmB P3) lk := by
  have hm : broadcastTo S256x4096 (shapeCast S256x1 (multiReduction .maximumf [1] S256 (bLogits P0 P1 P3) 0xFF800000#32 reduces_S256x4096_S256 (.inl rfl) rfl) shapeCasts_S256_S256x1) broadcasts_S256x1_S256x4096 (ix2 lq lk)
      = rowMax (qvB P0 lq) (kB P1) (lmB P3) := by
    refine (maxRow_keep_apply (bLogits P0 P1 P3) 0xFF800000#32 reduces_S256x4096_S256 (.inl rfl) rfl shapeCasts_S256_S256x1 broadcasts_S256x1_S256x4096 lq lk).trans ?_
    exact congrArg (fun f => Finset.fold max negInf f (Finset.univ : Finset (Fin 4096))) (funext fun lk' => bLogits_apply P0 P1 P3 lq lk')
  exact congrArg₂ (fun a b : EReal => Ideal.exp (a - b)) (bLogits_apply P0 P1 P3 lq lk) hm

/-- The weights: the exponentials over their row sums, times the mask row. -/
def bAttn : FVec Ideal S256x4096 .f32 :=
  mulf (divf (bExp P0 P1 P3)
      (broadcastTo S256x4096 (shapeCast S256x1 (multiReduction .add [1] S256 (bExp P0 P1 P3) 0x00000000#32 reduces_S256x4096_S256 (.inl rfl) rfl) shapeCasts_S256_S256x1) broadcasts_S256x1_S256x4096))
    (broadcastTo S256x4096 (shapeCast S1x4096 P2 shapeCasts_S1x1x4096_S1x4096) broadcasts_S1x4096_S256x4096)

theorem bAttn_apply (lq : Fin 256) (lk : Fin 4096) :
    bAttn P0 P1 P2 P3 (ix2 lq lk) = attnRow (qvB P0 lq) (kB P1) (mB P2) (lmB P3) lk := by
  have hs : broadcastTo S256x4096 (shapeCast S256x1 (multiReduction .add [1] S256 (bExp P0 P1 P3) 0x00000000#32 reduces_S256x4096_S256 (.inl rfl) rfl) shapeCasts_S256_S256x1) broadcasts_S256x1_S256x4096 (ix2 lq lk)
      = rowSum (qvB P0 lq) (kB P1) (lmB P3) := by
    refine (sumRow_keep_apply (bExp P0 P1 P3) 0x00000000#32 reduces_S256x4096_S256 (.inl rfl) rfl shapeCasts_S256_S256x1 broadcasts_S256x1_S256x4096 lq lk).trans ?_
    exact Finset.sum_congr rfl fun lk' _ => bExp_apply P0 P1 P3 lq lk'
  have hk : broadcastTo S256x4096 (shapeCast S1x4096 P2 shapeCasts_S1x1x4096_S1x4096) broadcasts_S1x4096_S256x4096 (ix2 lq lk) = mB P2 lk := by
    rw [broadcastTo_1b_ab_apply, shapeCast_1ab_ab_apply]
  exact congrArg₂ (fun a b : EReal => a * b) (congrArg₂ Ideal.div (bExp_apply P0 P1 P3 lq lk) hs) hk

/-! ## The two stored values -/

/-- The body's transposed weights are those stages, by unfolding. -/
theorem pay2_eq : k0_pay2 P0 P1 P2 P3 = transpose S4096x256 [1, 0] (bAttn P0 P1 P2 P3) transposes_S256x4096_p1_0_S4096x256 := rfl

theorem pay2_apply (lk : Fin 4096) (lq : Fin 256) :
    k0_pay2 P0 P1 P2 P3 (ix2 lk lq) = attnRow (qvB P0 lq) (kB P1) (mB P2) (lmB P3) lk := by
  rw [pay2_eq, transpose_ix2_apply, bAttn_apply]

/-- The first stored value, `[1, 4096, 256]`: at `(0, lk, lq)` the weight of key `lk` for the block's query `lq`. -/
theorem pay3_apply (u : Fin 1) (lk : Fin 4096) (lq : Fin 256) :
    k0_pay3 P0 P1 P2 P3 (ix3 u lk lq) = attnRow (qvB P0 lq) (kB P1) (mB P2) (lmB P3) lk := by
  unfold k0_pay3
  show shapeCast S1x4096x256 (k0_pay2 P0 P1 P2 P3) shapeCasts_S4096x256_S1x4096x256 (ix3 u lk lq) = _
  rw [shapeCast_ab_1ab_apply, pay2_apply]

/-- The second stored value, `[1, 64, 256]`: at `(0, c, lq)` channel `c` of the block's query `lq`'s output. -/
theorem pay1_apply (u : Fin 1) (c : Fin 64) (lq : Fin 256) :
    k0_pay1 (k0_pay4 P4) (k0_pay5 P0 P1 P2 P3) (constant S64x256 .f32 0x00000000#32) (ix3 u c lq)
      = outRow (qvB P0 lq) (kB P1) (mB P2) (lmB P3) (vB P4 c) := by
  unfold k0_pay1
  show shapeCast S1x64x256 (matmul D2 none (k0_pay4 P4) (k0_pay5 P0 P1 P2 P3) (constant S64x256 .f32 0x00000000#32)) shapeCasts_S64x256_S1x64x256 (ix3 u c lq) = _
  rw [shapeCast_ab_1ab_apply, weighted_apply]
  unfold outRow
  refine Finset.sum_congr rfl fun lk _ => ?_
  have ev : k0_pay4 P4 (ix2 c lk) = vB P4 c lk := by
    unfold k0_pay4
    show shapeCast S64x4096 P4 shapeCasts_S1x64x4096_S64x4096 (ix2 c lk) = _
    rw [shapeCast_1ab_ab_apply]
  have ea : k0_pay5 P0 P1 P2 P3 (ix2 lk lq) = attnRow (qvB P0 lq) (kB P1) (mB P2) (lmB P3) lk := by
    unfold k0_pay5
    show k0_pay2 P0 P1 P2 P3 (ix2 lk lq) = _
    rw [pay2_apply]
  rw [ev, ea]

end Blocks

end Cert.KernelIdeal.Body

end
-- ==== Proof.Blocks.lean ====
/-
  From blocks to arrays: after the kernel's run its two result arrays are the attention functions of the argument arrays.

  The grid has 4 × 16 points; point `t` is batch entry `t / 16` and query tile `t % 16` (256 query positions). There the
  body finds the tile's queries, and the batch entry's whole keys, values, mask and logarithm of the shifted mask — the
  last an array the program computes from the mask before the call (`logmask_apply`). What it writes back is, element by
  element, the specification's attention of exactly those rows of the arguments (`weights_point`, `output_point`), so each
  written block is that block of `Cert.Attn.attnT` / `Cert.Attn.out` (`flushed_weights`, `flushed_output`); the blocks
  tile both arrays (`cover_weights`, `cover_output`: the point for an element is its batch entry and its query position's
  tile), hence the arrays are those functions (`final_weights`, `final_output`, `run`).
-/
import proofs.«107089_j17265768529960_2_alg».proof.Proof.Gen.KernelIdeal.Value
import proofs.«107089_j17265768529960_2_alg».proof.Proof.BodyAttn
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Cert.KernelIdeal.Body
open Idealize.ShloMosaic.ValueIdx Idealize.ShloMosaic.StableHlo Cert.Attn

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps over the 64 points: every window's block index on the batch axis is `t / 16`; the query,
    output and weight windows move along the position axis with the tile `t % 16`; every other block index is 0. -/
theorem idx_facts : ∀ t : Fin cfg0.N,
    (win0_0.index t (0 : Fin 3) = t.val / 16 ∧ win0_0.index t (1 : Fin 3) = 0 ∧ win0_0.index t (2 : Fin 3) = t.val % 16)
    ∧ (win0_1.index t (0 : Fin 3) = t.val / 16 ∧ win0_1.index t (1 : Fin 3) = 0 ∧ win0_1.index t (2 : Fin 3) = 0)
    ∧ (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 3) = t.val / 16 ∧ win0_4.index t (1 : Fin 3) = 0 ∧ win0_4.index t (2 : Fin 3) = 0)
    ∧ (win0_5.index t (0 : Fin 3) = t.val / 16 ∧ win0_5.index t (1 : Fin 3) = 0 ∧ win0_5.index t (2 : Fin 3) = t.val % 16)
    ∧ (win0_6.index t (0 : Fin 3) = t.val / 16 ∧ win0_6.index t (1 : Fin 3) = 0 ∧ win0_6.index t (2 : Fin 3) = t.val % 16) :=
  (by decide +kernel : ∀ t : Fin grid0.N, _)

/-! ## The input blocks as rows of the arguments -/

/-- The four argument arrays as launched: queries, keys, values, mask. -/
abbrev argQ (c : Dev nD) : S4x64x4096.Idx → EReal := m ((c : Thread nD τ).loc main_arg0)
abbrev argK (c : Dev nD) : S4x64x4096.Idx → EReal := m ((c : Thread nD τ).loc main_arg1)
abbrev argV (c : Dev nD) : S4x64x4096.Idx → EReal := m ((c : Thread nD τ).loc main_arg2)
abbrev argM (c : Dev nD) : S4x1x4096.Idx → EReal := m ((c : Thread nD τ).loc main_arg3)

/-- The query window's block at point `t`: channel `cc`, position `lq` of the tile. -/
theorem iblk0_apply (c : Dev nD) (t : Fin cfg0.N) (cc : Fin 64) (lq : Fin 256) (b : Fin 4) (lqg : Fin 4096)
    (hb : b.val = t.val / 16) (hq : lqg.val = t.val % 16 * 256 + lq.val) :
    (iblk m c 0 t : Vec Ideal S1x64x256 .f32) (ix3 (0 : Fin 1) cc lq) = argQ m c (ix3 b cc lqg) := by
  obtain ⟨⟨e0, e1, e2⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [e0, hb]; omega
  | ⟨1, _⟩ => show win0_0.index t 1 * 64 + 1 * cc.val = cc.val; rw [e1]; omega
  | ⟨2, _⟩ => show win0_0.index t 2 * 256 + 1 * lq.val = lqg.val; rw [e2, hq]; omega

/-- The key window's block: the batch entry's whole keys. -/
theorem iblk1_apply (c : Dev nD) (t : Fin cfg0.N) (cc : Fin 64) (lk : Fin 4096) (b : Fin 4) (hb : b.val = t.val / 16) :
    (iblk m c 1 t : Vec Ideal S1x64x4096 .f32) (ix3 (0 : Fin 1) cc lk) = argK m c (ix3 b cc lk) := by
  obtain ⟨-, ⟨e0, e1, e2⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = b.val; rw [e0, hb]; omega
  | ⟨1, _⟩ => show win0_1.index t 1 * 64 + 1 * cc.val = cc.val; rw [e1]; omega
  | ⟨2, _⟩ => show win0_1.index t 2 * 4096 + 1 * lk.val = lk.val; rw [e2]; omega

/-- The value window's block: the batch entry's whole values. -/
theorem iblk2_apply (c : Dev nD) (t : Fin cfg0.N) (cc : Fin 64) (lk : Fin 4096) (b : Fin 4) (hb : b.val = t.val / 16) :
    (iblk m c 2 t : Vec Ideal S1x64x4096 .f32) (ix3 (0 : Fin 1) cc lk) = argV m c (ix3 b cc lk) := by
  obtain ⟨-, -, ⟨e0, e1, e2⟩, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = b.val; rw [e0, hb]; omega
  | ⟨1, _⟩ => show win0_2.index t 1 * 64 + 1 * cc.val = cc.val; rw [e1]; omega
  | ⟨2, _⟩ => show win0_2.index t 2 * 4096 + 1 * lk.val = lk.val; rw [e2]; omega

/-- The mask window's block: the batch entry's mask row. -/
theorem iblk3_apply (c : Dev nD) (t : Fin cfg0.N) (lk : Fin 4096) (b : Fin 4) (hb : b.val = t.val / 16) :
    (iblk m c 3 t : Vec Ideal S1x1x4096 .f32) (ix3 (0 : Fin 1) (0 : Fin 1) lk) = (argM m c) (ix3 b (0 : Fin 1) lk) := by
  obtain ⟨-, -, -, ⟨e0, e1, e2⟩, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * 0 = b.val; rw [e0, hb]; omega
  | ⟨1, _⟩ => show win0_3.index t 1 * 1 + 1 * 0 = 0; rw [e1]
  | ⟨2, _⟩ => show win0_3.index t 2 * 4096 + 1 * lk.val = lk.val; rw [e2]; omega

/-- The array the program computes before the call: the logarithm of the mask plus `ε`. -/
theorem logmask_eq (c : Dev nD) :
    (V m c main_v2 : S4x1x4096.Idx → EReal)
      = Host.log (addf (argM m c) (broadcastInDim S4x1x4096 ![] bcast_S_S4x1x4096 (constant (F := Ideal) S_ .f32 0x358637BD#32))) := by
  dsimp only [V, hostOps0]
  after_results

theorem logmask_apply (c : Dev nD) (b : Fin 4) (lk : Fin 4096) :
    (V m c main_v2 : S4x1x4096.Idx → EReal) (ix3 b (0 : Fin 1) lk) = logMask (argM m c) b lk := by
  rw [logmask_eq]
  show Ideal.log ((argM m c) (ix3 b (0 : Fin 1) lk)
    + broadcastInDim S4x1x4096 ![] bcast_S_S4x1x4096 (constant (F := Ideal) S_ .f32 0x358637BD#32) (ix3 b (0 : Fin 1) lk)) = _
  rw [broadcastInDim_apply _ bcast_S_S4x1x4096 _ (ix3 b (0 : Fin 1) lk) (fun a => a.elim0) (fun a => a.elim0)]
  rfl

/-- The fifth window's block: the batch entry's row of that array. -/
theorem iblk4_apply (c : Dev nD) (t : Fin cfg0.N) (lk : Fin 4096) (b : Fin 4) (hb : b.val = t.val / 16) :
    (iblk m c 4 t : Vec Ideal S1x1x4096 .f32) (ix3 (0 : Fin 1) (0 : Fin 1) lk) = logMask (argM m c) b lk := by
  obtain ⟨-, -, -, -, ⟨e0, e1, e2⟩, -⟩ := idx_facts t
  refine Eq.trans ?_ (logmask_apply m c b lk)
  unfold iblk
  rw [View.read_apply]
  show V m c main_v2 _ = V m c main_v2 _
  congr 1
  funext a
  apply Fin.ext
  match a with
  | ⟨0, _⟩ => show win0_4.index t 0 * 1 + 1 * 0 = b.val; rw [e0, hb]; omega
  | ⟨1, _⟩ => show win0_4.index t 1 * 1 + 1 * 0 = 0; rw [e1]
  | ⟨2, _⟩ => show win0_4.index t 2 * 4096 + 1 * lk.val = lk.val; rw [e2]; omega

/-! ## What a point writes back -/

/-- An element the body stores into the weights' block at point `t` is the weight, in the whole arrays, of the element
    under it: batch entry `t / 16`, the same key position, query position `(t % 16) · 256` plus the tile's. -/
theorem weights_point (c : Dev nD) (t : Fin cfg0.N) (y : S1x4096x256.Idx) (i : S4x4096x4096.Idx)
    (h0 : (i 0).val = t.val / 16) (h1 : (i 1).val = (y 1).val) (h2 : (i 2).val = t.val % 16 * 256 + (y 2).val) :
    k0_pay3 (iblk m c 0 t) (iblk m c 1 t) (iblk m c 3 t) (iblk m c 4 t) y = attnT (argQ m c) (argK m c) (argM m c) i := by
  obtain ⟨u, lk, lq, rfl⟩ : ∃ (u : Fin 1) (lk : Fin 4096) (lq : Fin 256), y = ix3 u lk lq := ⟨y 0, y 1, y 2, eq_ix3 y⟩
  obtain ⟨b, lkg, lqg, rfl⟩ : ∃ (b : Fin 4) (lkg lqg : Fin 4096), i = ix3 b lkg lqg := ⟨i 0, i 1, i 2, eq_ix3 i⟩
  obtain rfl : lkg = lk := Fin.ext h1
  refine (pay3_apply (iblk m c 0 t) (iblk m c 1 t) (iblk m c 3 t) (iblk m c 4 t) u lkg lq).trans ?_
  have e0 : qvB (iblk m c 0 t) lq = fun cc => argQ m c (ix3 b cc lqg) := funext fun cc => iblk0_apply m c t cc lq b lqg h0 h2
  have e1 : kB (iblk m c 1 t) = fun cc lk => argK m c (ix3 b cc lk) := funext fun cc => funext fun lk => iblk1_apply m c t cc lk b h0
  have e3 : mB (iblk m c 3 t) = fun lk => argM m c (ix3 b (0 : Fin 1) lk) := funext fun lk => iblk3_apply m c t lk b h0
  have e4 : lmB (iblk m c 4 t) = logMask (argM m c) b := funext fun lk => iblk4_apply m c t lk b h0
  rw [e0, e1, e3, e4]
  rfl

/-- Likewise an element the body stores into the output's block. -/
theorem output_point (c : Dev nD) (t : Fin cfg0.N) (y : S1x64x256.Idx) (i : S4x64x4096.Idx)
    (h0 : (i 0).val = t.val / 16) (h1 : (i 1).val = (y 1).val) (h2 : (i 2).val = t.val % 16 * 256 + (y 2).val) :
    k0_pay1 (k0_pay4 (iblk m c 2 t)) (k0_pay5 (iblk m c 0 t) (iblk m c 1 t) (iblk m c 3 t) (iblk m c 4 t)) (constant S64x256 .f32 0x00000000#32) y
      = out (argQ m c) (argK m c) (argV m c) (argM m c) i := by
  obtain ⟨u, cc, lq, rfl⟩ : ∃ (u : Fin 1) (cc : Fin 64) (lq : Fin 256), y = ix3 u cc lq := ⟨y 0, y 1, y 2, eq_ix3 y⟩
  obtain ⟨b, ccg, lqg, rfl⟩ : ∃ (b : Fin 4) (ccg : Fin 64) (lqg : Fin 4096), i = ix3 b ccg lqg := ⟨i 0, i 1, i 2, eq_ix3 i⟩
  obtain rfl : ccg = cc := Fin.ext h1
  refine (pay1_apply (iblk m c 0 t) (iblk m c 1 t) (iblk m c 2 t) (iblk m c 3 t) (iblk m c 4 t) u ccg lq).trans ?_
  have e0 : qvB (iblk m c 0 t) lq = fun cc => argQ m c (ix3 b cc lqg) := funext fun cc => iblk0_apply m c t cc lq b lqg h0 h2
  have e1 : kB (iblk m c 1 t) = fun cc lk => argK m c (ix3 b cc lk) := funext fun cc => funext fun lk => iblk1_apply m c t cc lk b h0
  have e2 : vB (iblk m c 2 t) ccg = fun lk => argV m c (ix3 b ccg lk) := funext fun lk => iblk2_apply m c t ccg lk b h0
  have e3 : mB (iblk m c 3 t) = fun lk => argM m c (ix3 b (0 : Fin 1) lk) := funext fun lk => iblk3_apply m c t lk b h0
  have e4 : lmB (iblk m c 4 t) = logMask (argM m c) b := funext fun lk => iblk4_apply m c t lk b h0
  rw [e0, e1, e2, e3, e4]
  rfl

/-- Point `t` writes back block `t` of the weights `attnT` of the arguments. -/
theorem flushed_weights (c : Dev nD) (t : Fin cfg0.N) :
    (dats m 0 c).flushed 6 t = ((cfg0.win 6).blk t).view.read (Elt Ideal) (attnT (argQ m c) (argK m c) (argM m c)) := by
  obtain ⟨-, -, -, -, -, -, ⟨e0, e1, e2⟩⟩ := idx_facts t
  rw [flushed6]
  unfold out0_6
  rw [View.canon_unit_zero hz3]
  simp only [View.ld_unit_zero (S := S1x64x256) hz3, View.ld_unit_zero (S := S1x64x4096) hz3, View.ld_unit_zero (S := S1x1x4096) hz3]
  funext y
  show k0_pay3 (iblk m c 0 t) (iblk m c 1 t) (iblk m c 3 t) (iblk m c 4 t) (win0_6.xinj (grid0.coords t) y)
    = attnT (argQ m c) (argK m c) (argM m c) (((cfg0.win 6).blk t).view.emb y)
  have hy0 : (y 0).val < 1 := (y 0).isLt
  refine weights_point m c t _ _ ?_ ?_ ?_
  · show win0_6.index t 0 * 1 + 1 * (y 0).val = t.val / 16; rw [e0]; omega
  · show win0_6.index t 1 * 4096 + 1 * (y 1).val = (y 1).val; rw [e1]; omega
  · show win0_6.index t 2 * 256 + 1 * (y 2).val = t.val % 16 * 256 + (y 2).val; rw [e2]; omega

/-- Point `t` writes back block `t` of `out` of the arguments. -/
theorem flushed_output (c : Dev nD) (t : Fin cfg0.N) :
    (dats m 0 c).flushed 5 t = ((cfg0.win 5).blk t).view.read (Elt Ideal) (out (argQ m c) (argK m c) (argV m c) (argM m c)) := by
  obtain ⟨-, -, -, -, -, ⟨e0, e1, e2⟩, -⟩ := idx_facts t
  rw [flushed5]
  unfold out0_5
  rw [View.canon_unit_zero hz3]
  simp only [View.ld_unit_zero (S := S1x64x256) hz3, View.ld_unit_zero (S := S1x64x4096) hz3, View.ld_unit_zero (S := S1x1x4096) hz3]
  funext y
  show k0_pay1 (k0_pay4 (iblk m c 2 t)) (k0_pay5 (iblk m c 0 t) (iblk m c 1 t) (iblk m c 3 t) (iblk m c 4 t)) (constant S64x256 .f32 0x00000000#32) (win0_5.xinj (grid0.coords t) y)
    = out (argQ m c) (argK m c) (argV m c) (argM m c) (((cfg0.win 5).blk t).view.emb y)
  have hy0 : (y 0).val < 1 := (y 0).isLt
  refine output_point m c t _ _ ?_ ?_ ?_
  · show win0_5.index t 0 * 1 + 1 * (y 0).val = t.val / 16; rw [e0]; omega
  · show win0_5.index t 1 * 64 + 1 * (y 1).val = (y 1).val; rw [e1]; omega
  · show win0_5.index t 2 * 256 + 1 * (y 2).val = t.val % 16 * 256 + (y 2).val; rw [e2]; omega

/-! ## The blocks tile the arrays -/

/-- An index of the weights array is in point `t`'s block iff each coordinate is in the block's range on its axis. -/
theorem mem_blk_weights (t : Fin cfg0.N) (i : S4x4096x4096.Idx) :
    i ∈ ((cfg0.win 6).blk t).view.set ↔ ∀ a : Fin 3, win0_6.index t a * S1x4096x256.size a ≤ (i a).val ∧ (i a).val < win0_6.index t a * S1x4096x256.size a + S1x4096x256.size a := by
  show i ∈ ((View.whole main_v3_1).slice (win0_6.rect t)).set ↔ _
  rw [View.set_slice_whole, Rect.mem_set_unit]
  exact Iff.rfl

/-- Likewise for the output array. -/
theorem mem_blk_output (t : Fin cfg0.N) (i : S4x64x4096.Idx) :
    i ∈ ((cfg0.win 5).blk t).view.set ↔ ∀ a : Fin 3, win0_5.index t a * S1x64x256.size a ≤ (i a).val ∧ (i a).val < win0_5.index t a * S1x64x256.size a + S1x64x256.size a := by
  show i ∈ ((View.whole main_v3_0).slice (win0_5.rect t)).set ↔ _
  rw [View.set_slice_whole, Rect.mem_set_unit]
  exact Iff.rfl

/-- Every element of the weights array is written by the point of its batch entry and its query position's tile. -/
theorem cover_weights (i : S4x4096x4096.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 4096 := (i 2).isLt
  have hN : cfg0.N = 64 := N_0
  obtain ⟨t, ht⟩ : ∃ t : Fin cfg0.N, t.val = (i 0).val * 16 + (i 2).val / 256 := ⟨⟨(i 0).val * 16 + (i 2).val / 256, by rw [hN]; omega⟩, rfl⟩
  obtain ⟨-, -, -, -, -, -, ⟨e0, e1, e2⟩⟩ := idx_facts t
  refine ⟨t, flush0_6 t, ?_⟩
  rw [mem_blk_weights]
  intro a
  match a with
  | ⟨0, _⟩ => show win0_6.index t 0 * 1 ≤ (i 0).val ∧ (i 0).val < win0_6.index t 0 * 1 + 1; rw [e0, ht]; omega
  | ⟨1, _⟩ => show win0_6.index t 1 * 4096 ≤ (i 1).val ∧ (i 1).val < win0_6.index t 1 * 4096 + 4096; rw [e1]; omega
  | ⟨2, _⟩ => show win0_6.index t 2 * 256 ≤ (i 2).val ∧ (i 2).val < win0_6.index t 2 * 256 + 256; rw [e2, ht]; omega

/-- Every element of the output array likewise. -/
theorem cover_output (i : S4x64x4096.Idx) :
    ∃ t : Fin cfg0.N, (cfg0.win 5).flush t = true ∧ i ∈ ((cfg0.win 5).blk t).view.set := by
  have hi0 : (i 0).val < 4 := (i 0).isLt
  have hi1 : (i 1).val < 64 := (i 1).isLt
  have hi2 : (i 2).val < 4096 := (i 2).isLt
  have hN : cfg0.N = 64 := N_0
  obtain ⟨t, ht⟩ : ∃ t : Fin cfg0.N, t.val = (i 0).val * 16 + (i 2).val / 256 := ⟨⟨(i 0).val * 16 + (i 2).val / 256, by rw [hN]; omega⟩, rfl⟩
  obtain ⟨-, -, -, -, -, ⟨e0, e1, e2⟩, -⟩ := idx_facts t
  refine ⟨t, flush0_5 t, ?_⟩
  rw [mem_blk_output]
  intro a
  match a with
  | ⟨0, _⟩ => show win0_5.index t 0 * 1 ≤ (i 0).val ∧ (i 0).val < win0_5.index t 0 * 1 + 1; rw [e0, ht]; omega
  | ⟨1, _⟩ => show win0_5.index t 1 * 64 ≤ (i 1).val ∧ (i 1).val < win0_5.index t 1 * 64 + 64; rw [e1]; omega
  | ⟨2, _⟩ => show win0_5.index t 2 * 256 ≤ (i 2).val ∧ (i 2).val < win0_5.index t 2 * 256 + 256; rw [e2, ht]; omega

/-! ## The arrays after the run -/

/-- The weights array ends holding `attnT` of the arguments. -/
theorem final_weights (c : Dev nD) : (dats m 0 c).arrAt 6 cfg0.N = attnT (argQ m c) (argK m c) (argM m c) :=
  (dats m 0 c).arrAt_eq_of_cover 6 (attnT (argQ m c) (argK m c) (argM m c)) (fun t _ => flushed_weights m c t) cover_weights

/-- The output array ends holding `out` of the arguments. -/
theorem final_output (c : Dev nD) : (dats m 0 c).arrAt 5 cfg0.N = out (argQ m c) (argK m c) (argV m c) (argM m c) :=
  (dats m 0 c).arrAt_eq_of_cover 5 (out (argQ m c) (argK m c) (argV m c) (argM m c)) (fun t _ => flushed_output m c t) cover_output

/-- The kernel's run, read: every weakly fair execution ends with the two result arrays at the attention functions of
    the argument arrays, the arguments unchanged. -/
theorem run : θ_run defs (onTc (τ := τ) (main (F := Ideal))) ⟨m, fun _ => 0, ρ⟩ fun r => ∀ c : Dev nD,
      r.2.mem ((c : Thread nD τ).loc main_v3_0) = out (argQ m c) (argK m c) (argV m c) (argM m c)
      ∧ r.2.mem ((c : Thread nD τ).loc main_v3_1) = attnT (argQ m c) (argK m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_output m c), (h c).2.1.trans (final_weights m c), (h c).2.2⟩)
    (run_blocks m ρ)

end Cert.KernelIdeal.Blocks

end
-- ==== Proof.lean ====
/-
  Masked single-head attention: a tiled kernel against the plain formula, equal over the extended reals.

  Both programs take queries, keys, values `[4, 64, 4096]` and a key mask `[4, 1, 4096]` and return
  `out[b, c, lq] = ∑ lk, v[b, c, lk] · attn[b, lq, lk]` and the weights transposed, `attn[b, lq, lk]` at `[b, lk, lq]`, where a row
  of `attn` is the softmax over `lk` of `(∑ c, q[b, c, lq] · k[b, c, lk]) / 8 + log (mask[b, lk] + ε)`, times the mask
  (`Cert.Attn.out`, `Cert.Attn.attnT`: Proof/AttnSpec.lean).

  The reference computes exactly that, operation by operation (Proof/RefAttn.lean, over its generated run and
  read-at-an-index lemmas). The kernel runs a 4 × 16 grid, one batch entry and one tile of 256 query positions per point,
  with the logarithm of the mask computed before the call; its body scales the QUERIES by 1/8 before contracting, which is
  the same number because 1/8 is a nonnegative finite factor (`Cert.Attn.sum_scale_mul` — the only algebraic step; no
  finiteness of the inputs is used), and otherwise computes the row functions of the specification on its blocks
  (Proof/BodyAttn.lean). Each point writes back its block of the two result functions and the blocks tile the arrays
  (Proof/Blocks.lean, over the generated blockwise run). So both programs end with both results at the same functions of
  the arguments. The three frames are the generated ones; the idealization rewrote nothing, so `preserves` is `True`.
-/
import proofs.«107089_j17265768529960_2_alg».proof.Defs
import proofs.«107089_j17265768529960_2_alg».proof.Proof.Gen.Kernel
import proofs.«107089_j17265768529960_2_alg».proof.Proof.Gen.Kernel.Skeleton
import proofs.«107089_j17265768529960_2_alg».proof.Proof.Gen.Kernel.Launch
import proofs.«107089_j17265768529960_2_alg».proof.Proof.Gen.Kernel.Points
import proofs.«107089_j17265768529960_2_alg».proof.Proof.Gen.Kernel.Frame
import proofs.«107089_j17265768529960_2_alg».proof.Proof.Gen.KernelIdeal
import proofs.«107089_j17265768529960_2_alg».proof.Proof.Gen.KernelIdeal.Skeleton
import proofs.«107089_j17265768529960_2_alg».proof.Proof.Gen.KernelIdeal.Launch
import proofs.«107089_j17265768529960_2_alg».proof.Proof.Gen.KernelIdeal.Points
import proofs.«107089_j17265768529960_2_alg».proof.Proof.Gen.KernelIdeal.Frame
import proofs.«107089_j17265768529960_2_alg».proof.Proof.Gen.ReferenceIdeal
import proofs.«107089_j17265768529960_2_alg».proof.Proof.Gen.Pre_finite_inputs
import proofs.«107089_j17265768529960_2_alg».proof.Proof.Gen.KernelIdeal.Value
import proofs.«107089_j17265768529960_2_alg».proof.Proof.Gen.ReferenceIdeal.Run
import proofs.«107089_j17265768529960_2_alg».proof.Proof.Gen.ReferenceIdeal.Read
import proofs.«107089_j17265768529960_2_alg».proof.Proof.RefAttn
import proofs.«107089_j17265768529960_2_alg».proof.Proof.Blocks
import Idealize.ShloMosaic.Adequacy
import Idealize.ShloMosaic.Init

noncomputable section

namespace Cert.Proof

open Idealize.ShloMosaic Idealize.ShloMosaic.TcCoe Idealize.SL.Sem Cert.Attn
open Cert.KernelIdeal.Blocks (argQ argK argV argM)

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs, from memories agreeing on the four arguments, end with the output at `out` and the weights at `attnT`
    of those arguments. -/
theorem algebraic : Cert.algebraic_KernelIdeal_ReferenceIdeal := by
  intro m ρ m' ρ' _ hagree
  refine ⟨fun c => out (argQ m c) (argK m c) (argV m c) (argM m c), fun c => attnT (argQ m c) (argK m c) (argM m c),
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · show Cert.ReferenceIdeal.Read.val_main_v22 (F := Ideal) _ _ _ _ = _
    rw [Cert.ReferenceIdeal.RefValue.out_eq, (hagree c).1, (hagree c).2.1, (hagree c).2.2.1, (hagree c).2.2.2]
  · show Cert.ReferenceIdeal.Read.val_main_v21 (F := Ideal) _ _ _ = _
    rw [Cert.ReferenceIdeal.RefValue.attnT_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
